-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S64x64 .f32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩

abbrev nBuf : Space → Nat
  | .hbm => 62
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S_, .f32⟩
  | .hbm, ⟨24, _⟩ => ⟨S1000000, .f32⟩
  | .hbm, ⟨25, _⟩ => ⟨S_, .f32⟩
  | .hbm, ⟨26, _⟩ => ⟨S100000, .f32⟩
  | .hbm, ⟨27, _⟩ => ⟨S1000000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S_, .f32⟩
  | .hbm, ⟨49, _⟩ => ⟨S1000000, .f32⟩
  | .hbm, ⟨50, _⟩ => ⟨S_, .f32⟩
  | .hbm, ⟨51, _⟩ => ⟨S100000, .f32⟩
  | .hbm, ⟨52, _⟩ => ⟨S1000000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S10000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .i32⟩
  | .hbm, ⟨11, _⟩ => ⟨S1000000, .i32⟩
  | .hbm, ⟨12, _⟩ => ⟨S1000000, .i1⟩
  | .hbm, ⟨13, _⟩ => ⟨S_, .i32⟩
  | .hbm, ⟨14, _⟩ => ⟨S1000000, .i32⟩
  | .hbm, ⟨15, _⟩ => ⟨S1000000, .i32⟩
  | .hbm, ⟨16, _⟩ => ⟨S1000000, .i32⟩
  | .hbm, ⟨17, _⟩ => ⟨S1000000x1, .i32⟩
  | .hbm, ⟨18, _⟩ => ⟨S1000000x64, .f32⟩
  | .hbm, ⟨19, _⟩ => ⟨S_, .f32⟩
  | .hbm, ⟨20, _⟩ => ⟨S100000x64, .f32⟩
  | .hbm, ⟨21, _⟩ => ⟨S1000000x1, .i32⟩
  | .hbm, ⟨22, _⟩ => ⟨S100000x64, .f32⟩
  | .hbm, ⟨23, _⟩ => ⟨S_, .f32⟩
  | .hbm, ⟨24, _⟩ => ⟨S1000000, .f32⟩
  | .hbm, ⟨25, _⟩ => ⟨S_, .f32⟩
  | .hbm, ⟨26, _⟩ => ⟨S100000, .f32⟩
  | .hbm, ⟨27, _⟩ => ⟨S1000000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S_, .f32⟩
  | .hbm, ⟨49, _⟩ => ⟨S1000000, .f32⟩
  | .hbm, ⟨50, _⟩ => ⟨S_, .f32⟩
  | .hbm, ⟨51, _⟩ => ⟨S100000, .f32⟩
  | .hbm, ⟨52, _⟩ => ⟨S1000000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S_, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  The layer both programs compute, as one function of arrays of extended reals.

  A node's output feature `q` is
      ((∑ₖ x[r,k]·Wself[k,q] + b[q]) + ½·∑ₖ aggIn[r,k]·Win[k,q]) + ½·∑ₖ aggOut[r,k]·Wout[k,q],
  with the three sums over the 64 input features and the additions associated as written. Everything is stated
  from ROWS of the three left matrices (`Fin 64 → EReal`), so that the same definition reads a 10000-row block and
  the 100000-row array: an entry depends on one row of each left matrix, on the three weight matrices and on one
  bias entry, and on nothing else.
-/
import Idealize.ShloMosaic.PureOps.Ideal
import Idealize.ShloMosaic.Lib.ValueIdx

noncomputable section

namespace Cert.Layer

open Idealize.ShloMosaic Idealize.ShloMosaic.ValueIdx

/-- A 64 × 64 weight matrix's index type. -/
abbrev Sq : Shape := ⟨2, ![64, 64]⟩
/-- The node-feature array: 100000 nodes, 64 features. -/
abbrev Nodes : Shape := ⟨2, ![100000, 64]⟩

/-- The scale of the two aggregated terms: the float word of ½, the same word in both programs. -/
def half : EReal := Ideal.ofBits .f32 0x3F000000#32

/-- One entry of a row times a weight matrix: `∑ₖ a[k]·w[k,q]`. -/
def rowDot (a : Fin 64 → EReal) (w : Sq.Idx → EReal) (q : Fin 64) : EReal :=
  ∑ k : Fin 64, a k * w (ix2 k q)

/-- One output entry from the node's row of features, its two rows of aggregated features, the weights and the
    bias entry of the output feature. -/
def entry (xr inr outr : Fin 64 → EReal) (ws wi wo : Sq.Idx → EReal) (b : EReal) (q : Fin 64) : EReal :=
  ((rowDot xr ws q + b) + half * rowDot inr wi q) + half * rowDot outr wo q

/-- The whole layer: entry `(r, q)` from row `r` of the features and of the two aggregates. -/
def combine (x ain aout : Nodes.Idx → EReal) (ws wi wo : Sq.Idx → EReal) (b : Fin 64 → EReal) : Nodes.Idx → EReal :=
  fun i => entry (fun k => x (ix2 (i 0) k)) (fun k => ain (ix2 (i 0) k)) (fun k => aout (ix2 (i 0) k)) ws wi wo (b (i 1)) (i 1)

theorem combine_apply (x ain aout : Nodes.Idx → EReal) (ws wi wo : Sq.Idx → EReal) (b : Fin 64 → EReal)
    (r : Fin 100000) (q : Fin 64) :
    combine x ain aout ws wi wo b (ix2 r q)
      = entry (fun k => x (ix2 r k)) (fun k => ain (ix2 r k)) (fun k => aout (ix2 r k)) ws wi wo (b q) q := rfl

end Cert.Layer

end
-- ==== Proof.RefLayer.lean ====
/-
  The reference's last stage is the layer `Cert.Layer.combine` of the feature array, the two aggregates the host
  computed from it, the three weight matrices and the bias.

  Read entry by entry: each of the three `dot_general`s contracts axis 1 of its left operand with axis 0 of the
  weights, so entry `(r, q)` is `∑ₖ left[r,k]·W[k,q]`; the bias is broadcast along the rows, so it contributes
  `b[q]`; the scalar ½ is broadcast to every entry; and the three additions are associated as in `entry`. The two
  aggregates are kept as the stages that compute them and are never opened.
-/
import proofs.«163844_j36567351558755_2_alg».proof.Proof.Gen.ReferenceIdeal.Read
import proofs.«163844_j36567351558755_2_alg».proof.Proof.Layer

noncomputable section

namespace Cert.ReferenceIdeal.RefLayer

open Cert.ReferenceIdeal Cert.ReferenceIdeal.Gen Cert.ReferenceIdeal.Read
open Idealize.ShloMosaic Idealize.ShloMosaic.ValueIdx Cert.Layer

/-- The bias as a function of the output feature. -/
abbrev biasOf (b : S64.Idx → EReal) : Fin 64 → EReal := fun q => b (ix1 q)

theorem last_stage_eq_combine (x0 : (⟨S100000x64, .f32⟩ : BufTy).Contents (Elt Ideal)) (x1 : (⟨S2x1000000, .i32⟩ : BufTy).Contents (Elt Ideal))
    (x2 x3 x4 : (⟨S64x64, .f32⟩ : BufTy).Contents (Elt Ideal)) (x5 : (⟨S64, .f32⟩ : BufTy).Contents (Elt Ideal)) :
    val_main_v53 (F := Ideal) x0 x1 x2 x3 x4 x5
      = combine x0 (val_main_v22 (F := Ideal) x0 x1) (val_main_v41 (F := Ideal) x0 x1) x4 x2 x3 (biasOf x5) := by
  funext i
  obtain ⟨r, q, rfl⟩ : ∃ (r : Fin 100000) (q : Fin 64), i = ix2 r q := ⟨i 0, i 1, eq_ix2 i⟩
  have el42 : ∀ k : Fin 64, lidx_main_v42 (ix2 r q) k = ix2 r k := fun k =>
    funext fun a => Fin.ext (by match a with | ⟨0, _⟩ => rfl | ⟨1, _⟩ => rfl)
  have er42 : ∀ k : Fin 64, ridx_main_v42 (ix2 r q) k = ix2 k q := fun k =>
    funext fun a => Fin.ext (by match a with | ⟨0, _⟩ => rfl | ⟨1, _⟩ => rfl)
  have el46 : ∀ k : Fin 64, lidx_main_v46 (ix2 r q) k = ix2 r k := fun k =>
    funext fun a => Fin.ext (by match a with | ⟨0, _⟩ => rfl | ⟨1, _⟩ => rfl)
  have er46 : ∀ k : Fin 64, ridx_main_v46 (ix2 r q) k = ix2 k q := fun k =>
    funext fun a => Fin.ext (by match a with | ⟨0, _⟩ => rfl | ⟨1, _⟩ => rfl)
  have el50 : ∀ k : Fin 64, lidx_main_v50 (ix2 r q) k = ix2 r k := fun k =>
    funext fun a => Fin.ext (by match a with | ⟨0, _⟩ => rfl | ⟨1, _⟩ => rfl)
  have er50 : ∀ k : Fin 64, ridx_main_v50 (ix2 r q) k = ix2 k q := fun k =>
    funext fun a => Fin.ext (by match a with | ⟨0, _⟩ => rfl | ⟨1, _⟩ => rfl)
  have eb : idx_main_v43 (idx_main_v44 (ix2 r q)) = ix1 q :=
    funext fun a => Fin.ext (by match a with | ⟨0, _⟩ => rfl)
  rw [val_main_v53_apply, val_main_v52_apply, val_main_v51_apply, val_main_cst_11_apply, val_main_v50_apply,
    val_main_v49_apply, val_main_v48_apply, val_main_v47_apply, val_main_cst_10_apply, val_main_v46_apply,
    val_main_v45_apply, val_main_v44_apply, val_main_v43_apply, val_main_v42_apply, combine_apply]
  simp only [el42, er42, el46, er46, el50, er50, eb, Ideal.addf_def, Ideal.mulf_def, Ideal.ofBits_def]
  rfl

end Cert.ReferenceIdeal.RefLayer

end
-- ==== Proof.HostInputs.lean ====
/-
  What the kernel's program has computed on the host when the pallas_call starts.

  Before the call the program computes, from the feature array and the edge list, the two mean aggregates (gather
  the features of each edge's far end, scatter-add them and the edge counts at the near end, divide by the count
  clamped below at 1) — once for incoming and once for outgoing edges — and reshapes the bias to one row. These are
  operation for operation the stages the reference computes first, so each array the call reads is the reference's
  stage of the same launch arrays. The aggregates are carried as those stages and never opened.
-/
import proofs.«163844_j36567351558755_2_alg».proof.Proof.Gen.KernelIdeal.Frame
import proofs.«163844_j36567351558755_2_alg».proof.Proof.Gen.ReferenceIdeal.Read
import Idealize.ShloMosaic.Lib.StableHlo.Run
import Idealize.ShloMosaic.Lib.ValueLayout

noncomputable section

namespace Cert.KernelIdeal.HostInputs

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The aggregate over incoming edges, as the call finds it: the reference's stage of the launch arrays. -/
theorem aggIn_eq (c : Dev nD) :
    (V m c main_v22 : S100000x64.Idx → EReal)
      = Cert.ReferenceIdeal.Read.val_main_v22 (F := Ideal) (m ((c : Thread nD τ).loc main_arg0)) (m ((c : Thread nD τ).loc main_arg1)) := by
  dsimp only [Gen.V, Gen.hostOps0]
  after_results_simp
  rfl

/-- The aggregate over outgoing edges, likewise. -/
theorem aggOut_eq (c : Dev nD) :
    (V m c main_v41 : S100000x64.Idx → EReal)
      = Cert.ReferenceIdeal.Read.val_main_v41 (F := Ideal) (m ((c : Thread nD τ).loc main_arg0)) (m ((c : Thread nD τ).loc main_arg1)) := by
  dsimp only [Gen.V, Gen.hostOps0]
  after_results_simp
  rfl

/-- The bias as the call finds it: the 64 launch entries laid out as one row. -/
theorem biasRow_eq (c : Dev nD) (q : Fin 64) :
    (V m c main_v42 : S1x64.Idx → EReal) (ix2 (0 : Fin 1) q) = (m ((c : Thread nD τ).loc main_arg5) : S64.Idx → EReal) (ix1 q) := by
  have e : (V m c main_v42 : S1x64.Idx → EReal)
      = shapeCast S1x64 (m ((c : Thread nD τ).loc main_arg5) : S64.Idx → EReal) shapeCasts_S64_S1x64 := by
    dsimp only [Gen.V, Gen.hostOps0]
    after_results_simp
    rfl
  rw [e]
  exact shapeCast_a_1a_apply _ _ (0 : Fin 1) q

end Cert.KernelIdeal.HostInputs

end
-- ==== Proof.BodyEntry.lean ====
/-
  What the kernel body stores, read at one entry of its 10000 × 64 output block.

  The body rounds its six matrix operands to bf16 (the identity on extended reals), multiplies each row block by
  its 64 × 64 weight matrix into a zero accumulator, adds the one bias row broadcast along the rows, and adds the two
  aggregated products each scaled by ½. At entry `(p, q)` this is `Cert.Layer.entry` of row `p` of each of the three
  row blocks, the three weight matrices and the bias row's entry `q`.
-/
import proofs.«163844_j36567351558755_2_alg».proof.Proof.Gen.KernelIdeal.Skeleton
import proofs.«163844_j36567351558755_2_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyEntry

open Cert.KernelIdeal Cert.KernelIdeal.Gen
open Idealize.ShloMosaic Idealize.ShloMosaic.ValueIdx Cert.Layer

/-- The body's one contraction record: axis 1 of the row block against axis 0 of the weights. -/
abbrev D := dot_S10000x64_S64x64_S10000x64_1_0_0_1_n_n

theorem lhs_row (j : S10000x64.Idx) (c : D.contr.Idx) : (D.lhsIdx j c 0).val = (j 0).val := by
  unfold DotDims.lhsIdx
  rw [dif_neg (show ¬(0 : Fin S10000x64.rank) ∈ D.lhsBatch by decide), dif_pos (show (0 : Fin S10000x64.rank) ∈ D.lhsNonContracting by decide)]
  rfl

theorem lhs_col (j : S10000x64.Idx) (c : D.contr.Idx) : (D.lhsIdx j c 1).val = (c ⟨0, by decide⟩).val :=
  D.lhsIdx_val_of_single rfl j c

theorem rhs_row (j : S10000x64.Idx) (c : D.contr.Idx) : (D.rhsIdx j c 0).val = (c ⟨0, by decide⟩).val :=
  D.rhsIdx_val_of_single rfl j c

theorem rhs_col (j : S10000x64.Idx) (c : D.contr.Idx) : (D.rhsIdx j c 1).val = (j 1).val := by
  unfold DotDims.rhsIdx
  rw [dif_neg (show ¬(1 : Fin S64x64.rank) ∈ D.rhsBatch by decide), dif_pos (show (1 : Fin S64x64.rank) ∈ D.rhsNonContracting by decide)]
  rfl

/-- A row block times a weight matrix into the zero accumulator, at `(p, q)`: row `p` of the block against column
    `q` of the weights. -/
theorem matmul_entry (a : FVec Ideal S10000x64 .bf16) (w : FVec Ideal S64x64 .bf16) (p : Fin 10000) (q : Fin 64) :
    matmul D none a w (constant (F := Ideal) S10000x64 .f32 0x00000000#32) (ix2 p q)
      = rowDot (fun k => a (ix2 p k)) w q := by
  unfold rowDot
  refine (Ideal.matmul_constant_zero_apply D none a w (ix2 p q)).trans ?_
  rw [← Equiv.sum_comp (contrEquiv1 D 64 rfl rfl).symm]
  refine Finset.sum_congr rfl fun k _ => ?_
  have hk := contrEquiv1_symm_val D 64 rfl rfl k
  have el : D.lhsIdx (ix2 p q) ((contrEquiv1 D 64 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 64 rfl rfl).symm k) = ix2 k q := funext fun a => Fin.ext (by
    match a with
    | ⟨0, _⟩ => exact (rhs_row _ _).trans hk
    | ⟨1, _⟩ => exact rhs_col _ _)
  rw [el, er]

/-- The stored value at entry `(p, q)` of the block. -/
theorem payload_entry (v0 v2 v5 : FVec Ideal S10000x64 .f32) (v8 v10 v12 : FVec Ideal S64x64 .f32) (v17 : FVec Ideal S1x64 .f32)
    (p : Fin 10000) (q : Fin 64) :
    k0_pay1 (F := Ideal) v0 v2 v5 v8 v10 v12 v17 (ix2 p q)
      = entry (fun k => v0 (ix2 p k)) (fun k => v2 (ix2 p k)) (fun k => v5 (ix2 p k)) v8 v10 v12 (v17 (ix2 (0 : Fin 1) q)) q := by
  unfold k0_pay1 entry
  simp only [shapeCast_self]
  rw [addf_apply, addf_apply, addf_apply, mulf_apply, mulf_apply,
    matmul_entry, matmul_entry, matmul_entry, broadcastTo_1b_ab_apply]
  rfl

/-- The same with the rows, the weights and the bias entry named: whatever the loaded blocks are known to hold. -/
theorem payload_entry_of (v0 v2 v5 : FVec Ideal S10000x64 .f32) (v8 v10 v12 : FVec Ideal S64x64 .f32) (v17 : FVec Ideal S1x64 .f32)
    (p : Fin 10000) (q : Fin 64) (xr inr outr : Fin 64 → EReal) (ws wi wo : Sq.Idx → EReal) (b : EReal)
    (h0 : ∀ k, v0 (ix2 p k) = xr k) (h1 : ∀ k, v2 (ix2 p k) = inr k) (h2 : ∀ k, v5 (ix2 p k) = outr k)
    (h3 : v8 = ws) (h4 : v10 = wi) (h5 : v12 = wo) (h6 : v17 (ix2 (0 : Fin 1) q) = b) :
    k0_pay1 (F := Ideal) v0 v2 v5 v8 v10 v12 v17 (ix2 p q) = entry xr inr outr ws wi wo b q := by
  subst h3 h4 h5 h6
  have e0 : (fun k => v0 (ix2 p k)) = xr := funext h0
  have e1 : (fun k => v2 (ix2 p k)) = inr := funext h1
  have e2 : (fun k => v5 (ix2 p k)) = outr := funext h2
  rw [payload_entry, e0, e1, e2]

end Cert.KernelIdeal.BodyEntry

end
-- ==== Proof.Whole.lean ====
/-
  From the ten written-back blocks to the whole result array.

  Grid point `t` of the call reads rows `10000·t … 10000·t + 9999` of the feature array and of the two aggregates, the
  three weight matrices and the bias row whole, and writes back rows `10000·t … 10000·t + 9999` of the result. An entry
  of the layer depends on one row of each left matrix only, so what point `t` writes back is block `t` of the layer
  `Cert.Layer.combine` of the arrays as the call finds them; the ten blocks tile the 100000 rows (the point that
  covers row `r` is `r / 10000`), so after the run the result array is the layer.
-/
import proofs.«163844_j36567351558755_2_alg».proof.Proof.Gen.KernelIdeal.Value
import proofs.«163844_j36567351558755_2_alg».proof.Proof.Layer
import proofs.«163844_j36567351558755_2_alg».proof.Proof.BodyEntry
import Idealize.ShloMosaic.Lib.Pipeline.Value

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Cert.Layer
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block indices at grid point `t`, decided over the ten points: the three row-streamed inputs and the output
    are at block `(t, 0)`, the weights and the bias row at block `(0, 0)`. -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row `p` of block `t` is row `10000·t + p` of the array. -/
def row (t : Fin cfg0.N) (p : Fin 10000) : Fin 100000 :=
  ⟨t.val * 10000 + p.val, by have h := t.isLt; have hN : cfg0.N = 10 := N_0; have hp := p.isLt; omega⟩

/-! ## A block of ANY array read through each input window

Stated for an arbitrary array `A`, so that nothing here depends on what the host computed into the arrays. -/

/-- The feature window's block at point `t`, by rows. -/
theorem read_x (A : S100000x64.Idx → EReal) (t : Fin cfg0.N) (p : Fin 10000) (k : Fin 64) :
    (((cfg0.win 0).blk t).view.read (Elt Ideal) A : S10000x64.Idx → EReal) (ix2 p k) = A (ix2 (row t p) k) := by
  obtain ⟨⟨e0, e1⟩, -⟩ := block_indices t
  show A (((cfg0.win 0).blk t).view.emb (ix2 p k)) = A (ix2 (row t p) k)
  refine congrArg A (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- The incoming-aggregate window's block at point `t`, by rows. -/
theorem read_in (A : S100000x64.Idx → EReal) (t : Fin cfg0.N) (p : Fin 10000) (k : Fin 64) :
    (((cfg0.win 1).blk t).view.read (Elt Ideal) A : S10000x64.Idx → EReal) (ix2 p k) = A (ix2 (row t p) k) := by
  obtain ⟨-, ⟨e0, e1⟩, -⟩ := block_indices t
  show A (((cfg0.win 1).blk t).view.emb (ix2 p k)) = A (ix2 (row t p) k)
  refine congrArg A (funext fun a => Fin.ext ?_)
  match a with
  | ⟨0, _⟩ => show win0_1.index t (0 : Fin 2) * 10000 + 1 * p.val = t.val * 10000 + p.val; omega
  | ⟨1, _⟩ => show win0_1.index t (1 : Fin 2) * 64 + 1 * k.val = k.val; omega

/-- The outgoing-aggregate window's block at point `t`, by rows. -/
theorem read_out (A : S100000x64.Idx → EReal) (t : Fin cfg0.N) (p : Fin 10000) (k : Fin 64) :
    (((cfg0.win 2).blk t).view.read (Elt Ideal) A : S10000x64.Idx → EReal) (ix2 p k) = A (ix2 (row t p) k) := by
  obtain ⟨-, -, ⟨e0, e1⟩, -⟩ := block_indices t
  show A (((cfg0.win 2).blk t).view.emb (ix2 p k)) = A (ix2 (row t p) k)
  refine congrArg A (funext fun a => Fin.ext ?_)
  match a with
  | ⟨0, _⟩ => show win0_2.index t (0 : Fin 2) * 10000 + 1 * p.val = t.val * 10000 + p.val; omega
  | ⟨1, _⟩ => show win0_2.index t (1 : Fin 2) * 64 + 1 * k.val = k.val; omega

/-- The self-weight window's block at every point is the whole matrix. -/
theorem read_ws (A : S64x64.Idx → EReal) (t : Fin cfg0.N) :
    (((cfg0.win 3).blk t).view.read (Elt Ideal) A : S64x64.Idx → EReal) = A := by
  obtain ⟨-, -, -, ⟨e0, e1⟩, -⟩ := block_indices t
  funext y
  show A (((cfg0.win 3).blk t).view.emb y) = A y
  refine congrArg A (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The incoming-weight window's block at every point is the whole matrix. -/
theorem read_wi (A : S64x64.Idx → EReal) (t : Fin cfg0.N) :
    (((cfg0.win 4).blk t).view.read (Elt Ideal) A : S64x64.Idx → EReal) = A := by
  obtain ⟨-, -, -, -, ⟨e0, e1⟩, -⟩ := block_indices t
  funext y
  show A (((cfg0.win 4).blk t).view.emb y) = A y
  refine congrArg A (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- The outgoing-weight window's block at every point is the whole matrix. -/
theorem read_wo (A : S64x64.Idx → EReal) (t : Fin cfg0.N) :
    (((cfg0.win 5).blk t).view.read (Elt Ideal) A : S64x64.Idx → EReal) = A := by
  obtain ⟨-, -, -, -, -, ⟨e0, e1⟩, -⟩ := block_indices t
  funext y
  show A (((cfg0.win 5).blk t).view.emb y) = A y
  refine congrArg A (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- The bias window's block at every point is the one bias row. -/
theorem read_bias (A : S1x64.Idx → EReal) (t : Fin cfg0.N) (q : Fin 64) :
    (((cfg0.win 6).blk t).view.read (Elt Ideal) A : S1x64.Idx → EReal) (ix2 (0 : Fin 1) q) = A (ix2 (0 : Fin 1) q) := by
  obtain ⟨-, -, -, -, -, -, ⟨e0, e1⟩, -⟩ := block_indices t
  show A (((cfg0.win 6).blk t).view.emb (ix2 (0 : Fin 1) q)) = A (ix2 (0 : Fin 1) q)
  refine congrArg A (funext fun a => Fin.ext ?_)
  match a with
  | ⟨0, _⟩ => show win0_6.index t (0 : Fin 2) * 1 + 1 * 0 = 0; omega
  | ⟨1, _⟩ => show win0_6.index t (1 : Fin 2) * 64 + 1 * q.val = q.val; omega

/-- Entry `(p, q)` of the output block at point `t` sits at `(10000·t + p, q)` of the result array. -/
theorem out_at (t : Fin cfg0.N) (p : Fin 10000) (q : Fin 64) :
    ((cfg0.win 7).blk t).view.emb (ix2 p q) = (ix2 (row t p) q : S100000x64.Idx) := by
  obtain ⟨-, -, -, -, -, -, -, ⟨e0, e1⟩⟩ := block_indices t
  refine funext fun a => Fin.ext ?_
  match a with
  | ⟨0, _⟩ => show win0_7.index t (0 : Fin 2) * 10000 + 1 * p.val = t.val * 10000 + p.val; omega
  | ⟨1, _⟩ => show win0_7.index t (1 : Fin 2) * 64 + 1 * q.val = q.val; omega

/-! ## One point's write-back -/

/-- The body's one store covers its whole staging block, so the block after the body is the stored value. -/
theorem out_eq_stored (x0 x1 x2 : FVec Ideal S10000x64 .f32) (x3 x4 x5 : FVec Ideal S64x64 .f32) (x6 : FVec Ideal S1x64 .f32) :
    out0_7 (F := Ideal) x0 x1 x2 x3 x4 x5 x6 = k0_pay1 (F := Ideal) x0 x1 x2 x3 x4 x5 x6 := by
  unfold out0_7
  rw [View.canon_unit_zero hz]
  simp only [View.ld_unit_zero (S := S10000x64) hz, View.ld_unit_zero (S := S64x64) hz, View.ld_unit_zero (S := S1x64) hz]

/-- A 10000 × 64 block whose entry `(p, q)` is entry `(10000·t + p, q)` of an array `G` is, cut to the output window's
    block at point `t`, that block of `G` read back. -/
theorem cut_eq_read (t : Fin cfg0.N) (Y : S10000x64.Idx → EReal) (G : S100000x64.Idx → EReal)
    (h : ∀ (p : Fin 10000) (q : Fin 64), Y (ix2 p q) = G (ix2 (row t p) q)) :
    (cfg0.win 7).cut (grid0.coords t) Y = ((cfg0.win 7).blk t).view.read (Elt Ideal) G := by
  refine funext fun (j : S10000x64.Idx) => ?_
  obtain ⟨p, q, rfl⟩ : ∃ (p : Fin 10000) (q : Fin 64), j = ix2 p q := ⟨j 0, j 1, eq_ix2 j⟩
  rw [View.read_apply, out_at t p q]
  exact h p q

/-- The write-back of point `t` for ANY seven arrays: the body run on their blocks at `t` stores block `t` of their layer.
    An entry of the layer depends on one row of each left matrix, and row `p` of block `t` is row `10000·t + p`. -/
theorem block_of_layer (t : Fin cfg0.N) (A0 A1 A2 : S100000x64.Idx → EReal) (A3 A4 A5 : S64x64.Idx → EReal) (A6 : S1x64.Idx → EReal) :
    (cfg0.win 7).cut (grid0.coords t)
        (out0_7 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (combine A0 A1 A2 A3 A4 A5 (fun q => A6 (ix2 (0 : Fin 1) q))) := by
  rw [out_eq_stored]
  refine cut_eq_read t _ _ fun p q => ?_
  rw [combine_apply]
  exact BodyEntry.payload_entry_of _ _ _ _ _ _ _ p q _ _ _ _ _ _ _
    (read_x A0 t p) (read_in A1 t p) (read_out A2 t p) (read_ws A3 t) (read_wi A4 t) (read_wo A5 t) (read_bias A6 t q)

/-! ## The call's arrays -/

/-- The layer of the arrays as the call finds them. -/
abbrev layerAtEntry (c : Dev nD) : S100000x64.Idx → EReal :=
  combine (V m c main_arg0) (V m c main_v22) (V m c main_v41) (V m c main_arg4) (V m c main_arg2) (V m c main_arg3)
    (fun q => (V m c main_v42 : S1x64.Idx → EReal) (ix2 (0 : Fin 1) q))

/-- What point `t` writes back is block `t` of the layer: each input block is its window's array, as the call finds
    it, read at `t`. -/
theorem flushed_eq (c : Dev nD) (t : Fin cfg0.N) :
    (dats m 0 c).flushed 7 t = ((cfg0.win 7).blk t).view.read (Elt Ideal) (layerAtEntry m c) := by
  show (cfg0.win 7).cut (grid0.coords t) ((dats m 0 c).after 7 t) = _
  rw [after0_7]
  exact block_of_layer t (V m c main_arg0) (V m c main_v22) (V m c main_v41) (V m c main_arg4) (V m c main_arg2) (V m c main_arg3) (V m c main_v42)

/-- An index of the result array is in point `t`'s block iff its row is among the block's 10000 rows. -/
theorem mem_block (t : Fin cfg0.N) (i : S100000x64.Idx) :
    i ∈ ((cfg0.win 7).blk t).view.set ↔ ∀ a : Fin 2, win0_7.index t a * S10000x64.size a ≤ (i a).val ∧ (i a).val < win0_7.index t a * S10000x64.size a + S10000x64.size a := by
  show i ∈ ((View.whole main_v43).slice (win0_7.rect t)).set ↔ _
  rw [View.set_slice_whole, Rect.mem_set_unit]
  exact Iff.rfl

/-- Every entry of the result array is written back by some point: row `r` by point `r / 10000`. -/
theorem covered (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 10 := N_0
  refine ⟨⟨(i 0).val / 10000, by omega⟩, flush0_7 _, ?_⟩
  obtain ⟨-, -, -, -, -, -, -, ⟨e0, e1⟩⟩ := block_indices ⟨(i 0).val / 10000, by omega⟩
  rw [mem_block]
  intro a
  match a with
  | ⟨0, _⟩ =>
    show win0_7.index ⟨(i 0).val / 10000, _⟩ (0 : Fin 2) * 10000 ≤ (i 0).val ∧ (i 0).val < win0_7.index ⟨(i 0).val / 10000, _⟩ (0 : Fin 2) * 10000 + 10000
    rw [e0]; show (i 0).val / 10000 * 10000 ≤ (i 0).val ∧ (i 0).val < (i 0).val / 10000 * 10000 + 10000; omega
  | ⟨1, _⟩ =>
    show win0_7.index ⟨(i 0).val / 10000, _⟩ (1 : Fin 2) * 64 ≤ (i 1).val ∧ (i 1).val < win0_7.index ⟨(i 0).val / 10000, _⟩ (1 : Fin 2) * 64 + 64
    rw [e1]; omega

/-- The result array after the run is the layer of the arrays as the call finds them. -/
theorem final (c : Dev nD) : (dats m 0 c).arrAt 7 cfg0.N = layerAtEntry m c :=
  (dats m 0 c).arrAt_eq_of_cover 7 (layerAtEntry m c) (fun t _ => flushed_eq m c t) covered

/-- The kernel's run: the result array at the layer, the arguments unchanged. -/
theorem run : θ_run defs (onTc (τ := τ) (main (F := Ideal))) ⟨m, fun _ => 0, ρ⟩ fun r => ∀ c : Dev nD,
      r.2.mem ((c : Thread nD τ).loc main_v43) = layerAtEntry m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.lean ====
/-
  The directional graph-convolution layer: the kernel's program against its jnp reference, on the extended reals.

  Both programs first compute on the host, from the node features and the edge list, the mean of the features over
  each node's incoming edges and over its outgoing edges, by the same operations in the same order. The reference then
  forms `(x·W_self + b) + ½·(agg_in·W_in) + ½·(agg_out·W_out)` with three whole matrix products; the kernel forms the same
  expression, with the same association, block of 10000 rows by block of 10000 rows, rounding its operands to bf16
  on the way into each product. On the extended reals the rounding is the identity and a row of a product depends on
  the same row of its left factor only, so the ten blocks are the ten row blocks of one array: both results are the
  function `Cert.Layer.combine` of the launch arrays. No algebraic law beyond this re-tiling is used, so the
  precondition (finite inputs) is never opened; the kernel's idealization rewrote nothing.

  `Proof/Layer.lean` states the layer, `Proof/RefLayer.lean` reads the reference's last stage as it, `Proof/BodyEntry.lean`
  reads the kernel body's stored value at an entry, `Proof/HostInputs.lean` identifies the arrays the call finds with the
  reference's stages, `Proof/Whole.lean` goes from the written-back blocks to the whole array.
-/
import proofs.«163844_j36567351558755_2_alg».proof.Defs
import proofs.«163844_j36567351558755_2_alg».proof.Proof.Gen.Kernel
import proofs.«163844_j36567351558755_2_alg».proof.Proof.Gen.Kernel.Skeleton
import proofs.«163844_j36567351558755_2_alg».proof.Proof.Gen.Kernel.Launch
import proofs.«163844_j36567351558755_2_alg».proof.Proof.Gen.Kernel.Points
import proofs.«163844_j36567351558755_2_alg».proof.Proof.Gen.Kernel.Frame
import proofs.«163844_j36567351558755_2_alg».proof.Proof.Gen.KernelIdeal
import proofs.«163844_j36567351558755_2_alg».proof.Proof.Gen.KernelIdeal.Skeleton
import proofs.«163844_j36567351558755_2_alg».proof.Proof.Gen.KernelIdeal.Launch
import proofs.«163844_j36567351558755_2_alg».proof.Proof.Gen.KernelIdeal.Points
import proofs.«163844_j36567351558755_2_alg».proof.Proof.Gen.KernelIdeal.Frame
import proofs.«163844_j36567351558755_2_alg».proof.Proof.Gen.ReferenceIdeal
import proofs.«163844_j36567351558755_2_alg».proof.Proof.Gen.Pre_finite_inputs
import proofs.«163844_j36567351558755_2_alg».proof.Proof.Gen.KernelIdeal.Value
import proofs.«163844_j36567351558755_2_alg».proof.Proof.Gen.ReferenceIdeal.Run
import proofs.«163844_j36567351558755_2_alg».proof.Proof.Gen.ReferenceIdeal.Read
import proofs.«163844_j36567351558755_2_alg».proof.Proof.Layer
import proofs.«163844_j36567351558755_2_alg».proof.Proof.RefLayer
import proofs.«163844_j36567351558755_2_alg».proof.Proof.HostInputs
import proofs.«163844_j36567351558755_2_alg».proof.Proof.Whole
import Idealize.ShloMosaic.Adequacy
import Idealize.ShloMosaic.Init

noncomputable section

namespace Cert.Proof

open Idealize.ShloMosaic Idealize.ShloMosaic.TcCoe Idealize.SL.Sem Idealize.ShloMosaic.ValueIdx

section Bridge

open Cert.KernelIdeal Cert.KernelIdeal.Gen

variable (m : (ℓ : Loc nD τ sig) → Buf (Elt Ideal) ℓ)

/-- The layer of the arrays as the call finds them is the layer of the launch arrays and of the reference's two
    aggregate stages of them: the arguments reach the call unchanged, and the host wrote the aggregates and the bias
    row by the reference's own first operations. -/
theorem layer_of_launch (c : Dev nD) :
    Cert.KernelIdeal.Whole.layerAtEntry m c
      = Cert.Layer.combine (m ((c : Thread nD τ).loc main_arg0))
          (Cert.ReferenceIdeal.Read.val_main_v22 (F := Ideal) (m ((c : Thread nD τ).loc main_arg0)) (m ((c : Thread nD τ).loc main_arg1)))
          (Cert.ReferenceIdeal.Read.val_main_v41 (F := Ideal) (m ((c : Thread nD τ).loc main_arg0)) (m ((c : Thread nD τ).loc main_arg1)))
          (m ((c : Thread nD τ).loc main_arg4)) (m ((c : Thread nD τ).loc main_arg2)) (m ((c : Thread nD τ).loc main_arg3))
          (Cert.ReferenceIdeal.RefLayer.biasOf (m ((c : Thread nD τ).loc main_arg5))) := by
  have hb : (fun q : Fin 64 => (V m c main_v42 : S1x64.Idx → EReal) (ix2 (0 : Fin 1) q))
      = Cert.ReferenceIdeal.RefLayer.biasOf (m ((c : Thread nD τ).loc main_arg5)) :=
    funext (Cert.KernelIdeal.HostInputs.biasRow_eq m c)
  show Cert.Layer.combine _ _ _ _ _ _ _ = _
  rw [hb, V_main_arg0 m c, Cert.KernelIdeal.HostInputs.aggIn_eq m c, Cert.KernelIdeal.HostInputs.aggOut_eq m c,
    V_main_arg4 m c, V_main_arg2 m c, V_main_arg3 m c]

end Bridge

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result array at the layer of the launch
    arrays: the kernel's by its ten written-back blocks, the reference's by its last stage read entry by entry. -/
theorem algebraic : Cert.algebraic_KernelIdeal_ReferenceIdeal := by
  intro m ρ m' ρ' _ hagree
  refine ⟨fun c => Cert.KernelIdeal.Whole.layerAtEntry m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v53_eq, Cert.ReferenceIdeal.RefLayer.last_stage_eq_combine, a0, a1, a2, a3, a4, a5]
  exact (layer_of_launch m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
